-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) (main_arg6 : FVec F S256x256 .f32) (main_arg7 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S5000x256 : Shape := ⟨2, ![5000, 256]⟩

abbrev nBuf : Space → Nat
  | .hbm => 29
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S256x256, .f32⟩
  | .hbm, ⟨25, _⟩ => ⟨S256x256, .f32⟩
  | .hbm, ⟨26, _⟩ => ⟨S1x256, .f32⟩
  | .hbm, ⟨27, _⟩ => ⟨S1x256, .f32⟩
  | .hbm, ⟨28, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S50000x256, .f32⟩
  | .hbm, ⟨25, _⟩ => ⟨S256x256, .f32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .i1⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S256x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .i1⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The dense stage of the bi-interaction aggregator, as one function of whole arrays.

  Given node features x and aggregated neighbour features s (both [50000, 256]), two weight matrices W1, W2
  ([256, 256], applied transposed) and two bias vectors b1, b2 ([256]), the entry (p, q) of the result is

      leaky (sum over k of (x[p,k] * s[p,k]) * W2[q,k]  +  b2[q])  +  leaky (sum over k of (x[p,k] + s[p,k]) * W1[q,k]  +  b1[q])

  on the extended reals, where leaky z is z when z is at least zero and c * z otherwise, c the single-precision
  number nearest 0.01. Row p of the result depends on row p of x and of s only. The second form below is the same
  entry written over already transposed weights ([k, q]) and biases laid out as one row ([1, 256]); the two agree
  whenever the transposed arrays are the transposes and the rows are the vectors.
-/
import Idealize.ShloMosaic.PureOps.Ideal
import Idealize.ShloMosaic.PureOps.Ideal.Laws
import Idealize.ShloMosaic.Lib.ValueIdx

open scoped BigOperators

noncomputable section

namespace Cert.BiAgg

open Idealize.ShloMosaic Idealize.ShloMosaic.ValueIdx

/-- Node features, aggregated neighbours and the result: 50000 nodes by 256 channels. -/
abbrev Nodes : Shape := ⟨2, ![50000, 256]⟩
/-- A weight matrix. -/
abbrev Weights : Shape := ⟨2, ![256, 256]⟩
/-- A bias vector. -/
abbrev Bias : Shape := ⟨1, ![256]⟩
/-- A bias vector laid out as one row. -/
abbrev BiasRow : Shape := ⟨2, ![1, 256]⟩

/-- The leaky rectifier: z where z is at least zero, the small slope times z elsewhere. Both constants are kept as
    their binary words; nothing below depends on their values. -/
def leaky (z : EReal) : EReal :=
  Scalar.select (Ideal.cmp .oge z (Ideal.ofBits .f32 0x00000000#32)) z (Ideal.ofBits .f32 0x3C23D70A#32 * z)

/-- The entry (p, q) of the dense stage over the weights as given (row q of each weight matrix is contracted). -/
def denseAt (x s : Nodes.Idx → EReal) (w1 : Weights.Idx → EReal) (b1 : Bias.Idx → EReal)
    (w2 : Weights.Idx → EReal) (b2 : Bias.Idx → EReal) (p : Fin 50000) (q : Fin 256) : EReal :=
  leaky ((∑ k : Fin 256, (x (ix2 p k) * s (ix2 p k)) * w2 (ix2 q k)) + b2 (ix1 q))
    + leaky ((∑ k : Fin 256, (x (ix2 p k) + s (ix2 p k)) * w1 (ix2 q k)) + b1 (ix1 q))

/-- The dense stage as a whole array. -/
def dense (x s : Nodes.Idx → EReal) (w1 : Weights.Idx → EReal) (b1 : Bias.Idx → EReal)
    (w2 : Weights.Idx → EReal) (b2 : Bias.Idx → EReal) : Nodes.Idx → EReal :=
  fun i => denseAt x s w1 b1 w2 b2 (i 0) (i 1)

theorem dense_ix2 (x s : Nodes.Idx → EReal) (w1 : Weights.Idx → EReal) (b1 : Bias.Idx → EReal)
    (w2 : Weights.Idx → EReal) (b2 : Bias.Idx → EReal) (p : Fin 50000) (q : Fin 256) :
    dense x s w1 b1 w2 b2 (ix2 p q) = denseAt x s w1 b1 w2 b2 p q := rfl

/-- The same entry over transposed weights (column q is contracted) and biases laid out as one row. -/
def denseRowsAt (x s : Nodes.Idx → EReal) (w1t : Weights.Idx → EReal) (b1r : BiasRow.Idx → EReal)
    (w2t : Weights.Idx → EReal) (b2r : BiasRow.Idx → EReal) (p : Fin 50000) (q : Fin 256) : EReal :=
  leaky ((∑ k : Fin 256, (x (ix2 p k) * s (ix2 p k)) * w2t (ix2 k q)) + b2r (ix2 (0 : Fin 1) q))
    + leaky ((∑ k : Fin 256, (x (ix2 p k) + s (ix2 p k)) * w1t (ix2 k q)) + b1r (ix2 (0 : Fin 1) q))

/-- Reading transposed weights at (k, q) and a bias row at (0, q) is reading the weights at (q, k) and the bias at q. -/
theorem denseRowsAt_eq (x s : Nodes.Idx → EReal) (w1 : Weights.Idx → EReal) (b1 : Bias.Idx → EReal)
    (w2 : Weights.Idx → EReal) (b2 : Bias.Idx → EReal) (w1t : Weights.Idx → EReal) (b1r : BiasRow.Idx → EReal)
    (w2t : Weights.Idx → EReal) (b2r : BiasRow.Idx → EReal)
    (h1 : ∀ (k q : Fin 256), w1t (ix2 k q) = w1 (ix2 q k)) (h2 : ∀ (k q : Fin 256), w2t (ix2 k q) = w2 (ix2 q k))
    (g1 : ∀ q : Fin 256, b1r (ix2 (0 : Fin 1) q) = b1 (ix1 q)) (g2 : ∀ q : Fin 256, b2r (ix2 (0 : Fin 1) q) = b2 (ix1 q))
    (p : Fin 50000) (q : Fin 256) :
    denseRowsAt x s w1t b1r w2t b2r p q = denseAt x s w1 b1 w2 b2 p q := by
  unfold denseRowsAt denseAt
  simp only [h1, h2, g1, g2]

end Cert.BiAgg

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Payload.lean ====
/-
  The kernel body's one stored value, read at a row p and a column q of its block.

  The body loads a block of node rows x0, the same rows of the aggregated neighbours x1, the two transposed weight
  matrices x2, x4 whole and the two bias rows x3, x5, and stores

      leaky ((x0 * x1) · x4 + x5)  +  leaky ((x0 + x1) · x2 + x3)

  where · is the matrix unit's product into a zero accumulator and the bias row is repeated down the block. At the
  exact values a product into zero read at (p, q) is the sum over k of lhs (p, k) * rhs (k, q), a cast to the same
  shape is the identity and the repeated row reads its one row at column q; every other operation is entry by entry.
  So the stored entry (p, q) is the dense stage's entry over the block's rows.
-/
import proofs.«165882_j62715112456964_2_alg».proof.Proof.Gen.KernelIdeal.Skeleton
import proofs.«165882_j62715112456964_2_alg».proof.Proof.Spec
import proofs.«165882_j62715112456964_2_alg».proof.Proof.LibMatmul
import Idealize.ShloMosaic.Lib.Pipeline.Value
import Idealize.ShloMosaic.Lib.ValueLayout

open scoped BigOperators

noncomputable section

namespace Cert.BiAgg

open Idealize.ShloMosaic Idealize.ShloMosaic.ValueIdx Cert.KernelIdeal Cert.KernelIdeal.Gen

/-- A block product into the zero accumulator plus a repeated bias row, at (p, q): the weights' cast to their own
    shape and the row's cast to its own shape are identities, the product is the sum over the contracted position,
    the repeated row reads its one row. -/
theorem affine_at (a : FVec Ideal S5000x256 .f32) (w : FVec Ideal S256x256 .f32) (b : FVec Ideal S1x256 .f32)
    (hw : S256x256.ShapeCasts S256x256) (hb : S1x256.ShapeCasts S1x256) (hbc : S1x256.Broadcasts S5000x256)
    (p : Fin 5000) (q : Fin 256) :
    addf (matmul dot_S5000x256_S256x256_S5000x256_1_0_0_1_n_n (some .fp32) a
        (shapeCast S256x256 w hw) (constant S5000x256 .f32 0x00000000#32))
      (broadcastTo S5000x256 (shapeCast S1x256 b hb) hbc) (ix2 p q)
      = (∑ k : Fin 256, a (ix2 p k) * w (ix2 k q)) + b (ix2 (0 : Fin 1) q) := by
  rw [addf_apply, shapeCast_self, shapeCast_self, broadcastTo_1b_ab_apply]
  refine congrArg (· + b (ix2 (0 : Fin 1) q)) ?_
  exact matmul_zero_ix2 dot_S5000x256_S256x256_S5000x256_1_0_0_1_n_n rfl rfl rfl rfl rfl rfl (some .fp32) a w p q

/-- The stored entry (p, q) of the block: the dense stage's entry over the block's rows, the transposed weights and
    the bias rows. The second operand's cast to its own shape is the identity; comparison, selection, sum and
    product are entry by entry; the two affine parts are `affine_at`. -/
theorem payload_at (x0 x1 : FVec Ideal S5000x256 .f32) (x2 x4 : FVec Ideal S256x256 .f32) (x3 x5 : FVec Ideal S1x256 .f32)
    (p : Fin 5000) (q : Fin 256) :
    k0_pay1 (F := Ideal) x0 x1 x2 x4 x3 x5 (ix2 p q)
      = leaky ((∑ k : Fin 256, (x0 (ix2 p k) * x1 (ix2 p k)) * x4 (ix2 k q)) + x5 (ix2 (0 : Fin 1) q))
        + leaky ((∑ k : Fin 256, (x0 (ix2 p k) + x1 (ix2 p k)) * x2 (ix2 k q)) + x3 (ix2 (0 : Fin 1) q)) := by
  unfold k0_pay1
  simp only [shapeCast_self (s := S5000x256)]
  rw [addf_apply, select_apply, select_apply, cmpf_apply, cmpf_apply, mulf_apply, mulf_apply, affine_at, affine_at]
  rfl

end Cert.BiAgg

end
-- ==== Proof.BlockReads.lean ====
/-
  One grid point's blocks, in coordinates, over ANY arrays.

  The pallas call runs over ten grid points. At point t the two row-blocked inputs and the output are at row block t
  (rows 5000·t … 5000·t + 4999, all 256 columns); the two transposed weight matrices and the two bias rows are at
  block (0, 0), that is, whole. An entry of a block sits in its array at block index times block size plus its own
  coordinate on each axis. So, for arbitrary arrays A0 … A5 standing in the six input windows, what the body leaves
  in the output's buffer at point t is block t of the dense stage of A0 … A5 written over transposed weights and bias
  rows: row r of that stage reads row r of A0 and A1 only, and rows 5000·t + p of both are in the point's blocks.
  Nothing here mentions what the arrays hold.
-/
import proofs.«165882_j62715112456964_2_alg».proof.Proof.Gen.KernelIdeal.Frame
import proofs.«165882_j62715112456964_2_alg».proof.Proof.Spec
import proofs.«165882_j62715112456964_2_alg».proof.Proof.Payload
import Idealize.ShloMosaic.Lib.Pipeline.Value

set_option maxRecDepth 16384

open scoped BigOperators

noncomputable section

namespace Cert.BiAgg

open Idealize.ShloMosaic Idealize.ShloMosaic.ValueIdx Idealize.ShloMosaic.TcCoe Idealize.SL.Sem
open Cert.KernelIdeal Cert.KernelIdeal.Gen

theorem zero_offsets : (![0, 0] : Fin 2 → Nat) = fun _ => 0 := funext fun a => by fin_cases a <;> rfl

/-- The printed index maps over the ten grid points: the two row-blocked inputs move with the output's row block and
    sit at column block 0; the weights and bias rows stay at block (0, 0); the output's row block is at most 9. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every row block 0 … 9 is some grid point's. -/
theorem index_onto : ∀ r : Fin 10, ∃ t : Fin cfg0.N, win0_6.index t = ![r.val, 0] :=
  (by decide +kernel : ∀ r : Fin 10, ∃ t : Fin grid0.N, win0_6.index t = ![r.val, 0])

/-- The row of the whole arrays that row p of point t's blocks is. -/
def rowOf (t : Fin cfg0.N) (p : Fin 5000) : Fin 50000 :=
  ⟨win0_6.index t (0 : Fin 2) * 5000 + p.val, by
    have h := (index_facts t).2.2.2.2.2.2.2.2.2.2.2.2.1
    have hp := p.isLt
    omega⟩

/-! ## Each window's block at a point, read in coordinates -/

theorem blk0_read (A : S50000x256.Idx → EReal) (t : Fin cfg0.N) (p : Fin 5000) (k : Fin 256) :
    ((cfg0.win 0).blk t).view.read (Elt Ideal) A (ix2 p k) = A (ix2 (rowOf t p) k) := by
  obtain ⟨e00, e01, -⟩ := index_facts t
  show A (((cfg0.win 0).blk t).view.emb (ix2 p k)) = A (ix2 (rowOf t p) k)
  have h : ((cfg0.win 0).blk t).view.emb (ix2 p k) = ix2 (rowOf t p) k := by
    funext a; apply Fin.ext
    match a with
    | ⟨0, _⟩ => show win0_0.index t (0 : Fin 2) * 5000 + 1 * p.val = win0_6.index t (0 : Fin 2) * 5000 + p.val; omega
    | ⟨1, _⟩ => show win0_0.index t (1 : Fin 2) * 256 + 1 * k.val = k.val; omega
  rw [h]

theorem blk1_read (A : S50000x256.Idx → EReal) (t : Fin cfg0.N) (p : Fin 5000) (k : Fin 256) :
    ((cfg0.win 1).blk t).view.read (Elt Ideal) A (ix2 p k) = A (ix2 (rowOf t p) k) := by
  obtain ⟨-, -, e10, e11, -⟩ := index_facts t
  show A (((cfg0.win 1).blk t).view.emb (ix2 p k)) = A (ix2 (rowOf t p) k)
  have h : ((cfg0.win 1).blk t).view.emb (ix2 p k) = ix2 (rowOf t p) k := by
    funext a; apply Fin.ext
    match a with
    | ⟨0, _⟩ => show win0_1.index t (0 : Fin 2) * 5000 + 1 * p.val = win0_6.index t (0 : Fin 2) * 5000 + p.val; omega
    | ⟨1, _⟩ => show win0_1.index t (1 : Fin 2) * 256 + 1 * k.val = k.val; omega
  rw [h]

theorem blk2_read (A : S256x256.Idx → EReal) (t : Fin cfg0.N) (k q : Fin 256) :
    ((cfg0.win 2).blk t).view.read (Elt Ideal) A (ix2 k q) = A (ix2 k q) := by
  obtain ⟨-, -, -, -, e20, e21, -⟩ := index_facts t
  show A (((cfg0.win 2).blk t).view.emb (ix2 k q)) = A (ix2 k q)
  have h : ((cfg0.win 2).blk t).view.emb (ix2 k q) = ix2 k q := by
    funext a; apply Fin.ext
    match a with
    | ⟨0, _⟩ => show win0_2.index t (0 : Fin 2) * 256 + 1 * k.val = k.val; omega
    | ⟨1, _⟩ => show win0_2.index t (1 : Fin 2) * 256 + 1 * q.val = q.val; omega
  rw [h]

theorem blk3_read (A : S1x256.Idx → EReal) (t : Fin cfg0.N) (q : Fin 256) :
    ((cfg0.win 3).blk t).view.read (Elt Ideal) A (ix2 (0 : Fin 1) q) = A (ix2 (0 : Fin 1) q) := by
  obtain ⟨-, -, -, -, -, -, e30, e31, -⟩ := index_facts t
  show A (((cfg0.win 3).blk t).view.emb (ix2 (0 : Fin 1) q)) = A (ix2 (0 : Fin 1) q)
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 256 + 1 * q.val = q.val; omega
  rw [h]

theorem blk4_read (A : S256x256.Idx → EReal) (t : Fin cfg0.N) (k q : Fin 256) :
    ((cfg0.win 4).blk t).view.read (Elt Ideal) A (ix2 k q) = A (ix2 k q) := by
  obtain ⟨-, -, -, -, -, -, -, -, e40, e41, -⟩ := index_facts t
  show A (((cfg0.win 4).blk t).view.emb (ix2 k q)) = A (ix2 k q)
  have h : ((cfg0.win 4).blk t).view.emb (ix2 k q) = ix2 k q := by
    funext a; apply Fin.ext
    match a with
    | ⟨0, _⟩ => show win0_4.index t (0 : Fin 2) * 256 + 1 * k.val = k.val; omega
    | ⟨1, _⟩ => show win0_4.index t (1 : Fin 2) * 256 + 1 * q.val = q.val; omega
  rw [h]

theorem blk5_read (A : S1x256.Idx → EReal) (t : Fin cfg0.N) (q : Fin 256) :
    ((cfg0.win 5).blk t).view.read (Elt Ideal) A (ix2 (0 : Fin 1) q) = A (ix2 (0 : Fin 1) q) := by
  obtain ⟨-, -, -, -, -, -, -, -, -, -, e50, e51, -⟩ := index_facts t
  show A (((cfg0.win 5).blk t).view.emb (ix2 (0 : Fin 1) q)) = A (ix2 (0 : Fin 1) q)
  have h : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 256 + 1 * q.val = q.val; omega
  rw [h]

/-- Entry (p, q) of point t's output block sits at row `rowOf t p`, column q of the result array. -/
theorem out_at (t : Fin cfg0.N) (p : Fin 5000) (q : Fin 256) :
    ((cfg0.win 6).blk t).view.emb (ix2 p q) = ix2 (rowOf t p) q := by
  have e61 := (index_facts t).2.2.2.2.2.2.2.2.2.2.2.2.2
  funext a; apply Fin.ext
  match a with
  | ⟨0, _⟩ => show win0_6.index t (0 : Fin 2) * 5000 + 1 * p.val = win0_6.index t (0 : Fin 2) * 5000 + p.val; omega
  | ⟨1, _⟩ => show win0_6.index t (1 : Fin 2) * 256 + 1 * q.val = q.val; omega

/-! ## What the body leaves at a point is a block of one whole array -/

/-- The dense stage over transposed weights and bias rows, as a whole array of the six arrays. -/
def denseRows (A0 A1 : S50000x256.Idx → EReal) (A2 : S256x256.Idx → EReal) (A3 : S1x256.Idx → EReal)
    (A4 : S256x256.Idx → EReal) (A5 : S1x256.Idx → EReal) : S50000x256.Idx → EReal :=
  fun i => denseRowsAt A0 A1 A2 A3 A4 A5 (i 0) (i 1)

/-- For any arrays in the six input windows: the output buffer after the body at point t, read through the output
    window's block, is block t of `denseRows` of those arrays. -/
theorem out_block (A0 A1 : S50000x256.Idx → EReal) (A2 : S256x256.Idx → EReal) (A3 : S1x256.Idx → EReal)
    (A4 : S256x256.Idx → EReal) (A5 : S1x256.Idx → EReal) (t : Fin cfg0.N) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (denseRows A0 A1 A2 A3 A4 A5) := by
  unfold out0_6
  rw [View.canon_unit_zero zero_offsets]
  simp only [View.ld_unit_zero (S := S5000x256) zero_offsets, View.ld_unit_zero (S := S256x256) zero_offsets,
    View.ld_unit_zero (S := S1x256) zero_offsets]
  refine funext fun (j : S5000x256.Idx) => ?_
  obtain ⟨p, q, rfl⟩ : ∃ (p : Fin 5000) (q : Fin 256), j = ix2 p q := ⟨j 0, j 1, eq_ix2 j⟩
  show k0_pay1 (((cfg0.win 0).blk t).view.read (Elt Ideal) A0) (((cfg0.win 1).blk t).view.read (Elt Ideal) A1)
      (((cfg0.win 2).blk t).view.read (Elt Ideal) A2) (((cfg0.win 4).blk t).view.read (Elt Ideal) A4)
      (((cfg0.win 3).blk t).view.read (Elt Ideal) A3) (((cfg0.win 5).blk t).view.read (Elt Ideal) A5) (ix2 p q)
    = denseRows A0 A1 A2 A3 A4 A5 (((cfg0.win 6).blk t).view.emb (ix2 p q))
  rw [out_at]
  refine (payload_at _ _ _ _ _ _ p q).trans ?_
  show _ = denseRowsAt A0 A1 A2 A3 A4 A5 (rowOf t p) q
  unfold denseRowsAt
  refine congrArg₂ (· + ·) (congrArg leaky ?_) (congrArg leaky ?_)
  · refine congrArg₂ (· + ·) (Finset.sum_congr rfl fun k _ => ?_) (blk5_read A5 t q)
    rw [blk0_read A0 t p k, blk1_read A1 t p k, blk4_read A4 t k q]
  · refine congrArg₂ (· + ·) (Finset.sum_congr rfl fun k _ => ?_) (blk3_read A3 t q)
    rw [blk0_read A0 t p k, blk1_read A1 t p k, blk2_read A2 t k q]

end Cert.BiAgg

end
-- ==== Proof.HostArrays.lean ====
/-
  The arrays the pallas call finds, as functions of the program's arguments.

  Before the call the program computes, on the host, the aggregated neighbour features (a gather of the rows named by
  the edge columns, scaled by the edge values, summed into the rows named by the edge rows), the two weight matrices
  transposed, and the two bias vectors laid out as one row. The aggregated features are carried as ONE term of the
  arguments — the same operations, in the same order, that the reference applies — and never opened. A transposed
  matrix read at (k, q) is the matrix at (q, k); a vector laid out as one row read at (0, q) is the vector at q.
-/
import proofs.«165882_j62715112456964_2_alg».proof.Proof.Gen.KernelIdeal.Frame
import proofs.«165882_j62715112456964_2_alg».proof.Proof.Gen.ReferenceIdeal.Read
import Idealize.ShloMosaic.Lib.StableHlo.Run
import Idealize.ShloMosaic.Lib.ValueLayout

noncomputable section

namespace Cert.BiAgg

open Idealize.ShloMosaic Idealize.ShloMosaic.ValueIdx Idealize.ShloMosaic.StableHlo Idealize.ShloMosaic.TcCoe
open Idealize.SL.Sem Cert.KernelIdeal Cert.KernelIdeal.Gen

variable (m : (ℓ : Loc nD τ sig) → Buf (Elt Ideal) ℓ)

/-- The first transposed weight matrix the call finds is the transpose of the fifth argument. -/
theorem found_w1t (c : Dev nD) :
    (V m c main_v13 : S256x256.Idx → EReal)
      = transpose S256x256 [1, 0] (m ((c : Thread nD τ).loc main_arg4)) Facts₀.transposes_S256x256_S256x256_1_0 := by
  dsimp only [V, hostOps0]; after_results

/-- The second transposed weight matrix the call finds is the transpose of the seventh argument. -/
theorem found_w2t (c : Dev nD) :
    (V m c main_v14 : S256x256.Idx → EReal)
      = transpose S256x256 [1, 0] (m ((c : Thread nD τ).loc main_arg6)) Facts₀.transposes_S256x256_S256x256_1_0 := by
  dsimp only [V, hostOps0]; after_results

/-- The first bias row the call finds is the sixth argument laid out as one row. -/
theorem found_b1r (c : Dev nD) :
    (V m c main_v15 : S1x256.Idx → EReal)
      = shapeCast S1x256 (m ((c : Thread nD τ).loc main_arg5)) Facts₀.shapeCasts_S256_S1x256 := by
  dsimp only [V, hostOps0]; after_results; rfl

/-- The second bias row the call finds is the eighth argument laid out as one row. -/
theorem found_b2r (c : Dev nD) :
    (V m c main_v16 : S1x256.Idx → EReal)
      = shapeCast S1x256 (m ((c : Thread nD τ).loc main_arg7)) Facts₀.shapeCasts_S256_S1x256 := by
  dsimp only [V, hostOps0]; after_results; rfl

/-- The aggregated neighbour features the call finds are the reference's aggregation of the first four arguments:
    the two programs apply the same host operations, so the two terms are one. -/
theorem found_side (c : Dev nD) :
    (V m c main_v12 : S50000x256.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [V, hostOps0]; after_results; rfl

/-- A found transposed weight matrix at (k, q) is the argument at (q, k). -/
theorem found_w1t_at (c : Dev nD) (k q : Fin 256) :
    (V m c main_v13 : S256x256.Idx → EReal) (ix2 k q)
      = (m ((c : Thread nD τ).loc main_arg4) : S256x256.Idx → EReal) (ix2 q k) := by
  rw [found_w1t]; exact transpose_ix2_apply _ _ k q

theorem found_w2t_at (c : Dev nD) (k q : Fin 256) :
    (V m c main_v14 : S256x256.Idx → EReal) (ix2 k q)
      = (m ((c : Thread nD τ).loc main_arg6) : S256x256.Idx → EReal) (ix2 q k) := by
  rw [found_w2t]; exact transpose_ix2_apply _ _ k q

/-- A found bias row at (0, q) is the argument at q. -/
theorem found_b1r_at (c : Dev nD) (q : Fin 256) :
    (V m c main_v15 : S1x256.Idx → EReal) (ix2 (0 : Fin 1) q)
      = (m ((c : Thread nD τ).loc main_arg5) : S256.Idx → EReal) (ix1 q) := by
  rw [found_b1r]; exact shapeCast_a_1a_apply _ _ 0 q

theorem found_b2r_at (c : Dev nD) (q : Fin 256) :
    (V m c main_v16 : S1x256.Idx → EReal) (ix2 (0 : Fin 1) q)
      = (m ((c : Thread nD τ).loc main_arg7) : S256.Idx → EReal) (ix1 q) := by
  rw [found_b2r]; exact shapeCast_a_1a_apply _ _ 0 q

end Cert.BiAgg

end
-- ==== Proof.Blocks.lean ====
/-
  From blocks to the whole result array.

  What point t writes back is the body's result over the point's input blocks, and each input block is its array — as
  the call finds it — read through the window. So (by the block lemma, which holds for any arrays) point t writes
  back block t of ONE whole array: the dense stage, over transposed weights and bias rows, of the arrays the call
  finds. The ten row blocks tile the 50000 rows (row r lies in row block r / 5000), so the result array ends at
  that whole array. Reading the found arrays back as functions of the arguments — the node features unchanged, the
  shared aggregation, a transposed matrix at (k, q) the matrix at (q, k), a bias row at (0, q) the bias at q — gives
  the specification of the arguments.
-/
import proofs.«165882_j62715112456964_2_alg».proof.Proof.Gen.KernelIdeal.Value
import proofs.«165882_j62715112456964_2_alg».proof.Proof.Spec
import proofs.«165882_j62715112456964_2_alg».proof.Proof.BlockReads
import proofs.«165882_j62715112456964_2_alg».proof.Proof.HostArrays
import Idealize.ShloMosaic.Lib.Pipeline.Value

set_option maxRecDepth 16384

noncomputable section

namespace Cert.BiAgg

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The dense stage of the arrays the call finds: what the result array ends holding. -/
def foundOut (c : Dev nD) : S50000x256.Idx → EReal :=
  denseRows (V m c main_arg0) (V m c main_v12) (V m c main_v13) (V m c main_v15) (V m c main_v14) (V m c main_v16)

/-- What point t writes back is block t of `foundOut`: the block lemma at the arrays the call finds. -/
theorem flushed_eq (c : Dev nD) (t : Fin cfg0.N) :
    (dats m 0 c).flushed 6 t = ((cfg0.win 6).blk t).view.read (Elt Ideal) (foundOut m c) := by
  rw [Cert.KernelIdeal.Value.flushed6]
  exact out_block (V m c main_arg0) (V m c main_v12) (V m c main_v13) (V m c main_v15) (V m c main_v14) (V m c main_v16) t

/-- An index of the result array is in point t's block iff each coordinate is in the block's range on its axis. -/
theorem mem_block (t : Fin cfg0.N) (i : S50000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v17).slice (win0_6.rect t)).set ↔ _
  rw [View.set_slice_whole, Rect.mem_set_unit]
  exact Iff.rfl

/-- Every index of the result array is in some point's block: row r lies in row block r / 5000. -/
theorem covered (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- The result array after the run is the dense stage of the arrays the call finds. -/
theorem final_found (c : Dev nD) : (dats m 0 c).arrAt 6 cfg0.N = foundOut m c :=
  (dats m 0 c).arrAt_eq_of_cover 6 (foundOut m c) (fun t _ => flushed_eq m c t) covered

/-- … which is the dense stage of the arguments, with the reference's aggregation of the first four. -/
theorem foundOut_eq (c : Dev nD) :
    foundOut m c = dense (m ((c : Thread nD τ).loc main_arg0))
      (Cert.ReferenceIdeal.Read.val_main_v12 (F := Ideal) (m ((c : Thread nD τ).loc main_arg0))
        (m ((c : Thread nD τ).loc main_arg1)) (m ((c : Thread nD τ).loc main_arg2)) (m ((c : Thread nD τ).loc main_arg3)))
      (m ((c : Thread nD τ).loc main_arg4)) (m ((c : Thread nD τ).loc main_arg5))
      (m ((c : Thread nD τ).loc main_arg6)) (m ((c : Thread nD τ).loc main_arg7)) := by
  unfold foundOut
  rw [V_main_arg0, found_side]
  funext i
  exact denseRowsAt_eq (m ((c : Thread nD τ).loc main_arg0))
    (Cert.ReferenceIdeal.Read.val_main_v12 (F := Ideal) (m ((c : Thread nD τ).loc main_arg0))
      (m ((c : Thread nD τ).loc main_arg1)) (m ((c : Thread nD τ).loc main_arg2)) (m ((c : Thread nD τ).loc main_arg3)))
    (m ((c : Thread nD τ).loc main_arg4)) (m ((c : Thread nD τ).loc main_arg5))
    (m ((c : Thread nD τ).loc main_arg6)) (m ((c : Thread nD τ).loc main_arg7))
    (V m c main_v13) (V m c main_v15) (V m c main_v14) (V m c main_v16)
    (found_w1t_at m c) (found_w2t_at m c) (found_b1r_at m c) (found_b2r_at m c) (i 0) (i 1)

/-- The kernel's run, read: the result array ends at the dense stage of the arguments, the arguments unchanged. -/
theorem kernel_run : θ_run defs (onTc (τ := τ) (main (F := Ideal))) ⟨m, fun _ => 0, ρ⟩ fun r => ∀ c : Dev nD,
      r.2.mem ((c : Thread nD τ).loc main_v17) = dense (m ((c : Thread nD τ).loc main_arg0))
        (Cert.ReferenceIdeal.Read.val_main_v12 (F := Ideal) (m ((c : Thread nD τ).loc main_arg0))
          (m ((c : Thread nD τ).loc main_arg1)) (m ((c : Thread nD τ).loc main_arg2)) (m ((c : Thread nD τ).loc main_arg3)))
        (m ((c : Thread nD τ).loc main_arg4)) (m ((c : Thread nD τ).loc main_arg5))
        (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final_found m c).trans (foundOut_eq m c)), (h c).2⟩)
    (Cert.KernelIdeal.Value.run_blocks m ρ)

end Cert.BiAgg

end
-- ==== Proof.RefDense.lean ====
/-
  The reference's result is the dense stage of its own aggregated neighbour features.

  Read one operation at a time, the reference's entry (p, q) is

      leaky (sum over k of (x[p,k] * s[p,k]) * W2ᵀ[k,q] + b2[q])  +  leaky (sum over k of (x[p,k] + s[p,k]) * W1ᵀ[k,q] + b1[q])

  with s its aggregation of the first four arguments: each matrix product is a sum over the contracted position, the
  transposed weights read the weights at the swapped position, the bias is repeated down the rows, the rectifier
  compares with the zero word and scales by the slope word. That is the specification's entry, term by term.
-/
import proofs.«165882_j62715112456964_2_alg».proof.Proof.Gen.ReferenceIdeal.Read
import proofs.«165882_j62715112456964_2_alg».proof.Proof.Spec

open scoped BigOperators

noncomputable section

namespace Cert.BiAgg

open Idealize.ShloMosaic Idealize.ShloMosaic.ValueIdx Cert.ReferenceIdeal Cert.ReferenceIdeal.Read

theorem reference_is_dense (x0 : (⟨S50000x256, .f32⟩ : BufTy).Contents (Elt Ideal))
    (x1 x2 : (⟨S800000, .i32⟩ : BufTy).Contents (Elt Ideal)) (x3 : (⟨S800000, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v35 (F := Ideal) x0 x1 x2 x3 x4 x5 x6 x7
      = dense x0 (val_main_v12 (F := Ideal) x0 x1 x2 x3) x4 x5 x6 x7 := by
  funext i
  obtain ⟨p, q, rfl⟩ : ∃ (p : Fin 50000) (q : Fin 256), i = ix2 p q := ⟨i 0, i 1, eq_ix2 i⟩
  rw [dense_ix2]
  -- where each operation reads its operands, in coordinates
  have l15 : ∀ k : Fin 256, lidx_main_v15 (ix2 p q) k = ix2 p k := fun k =>
    funext fun a => Fin.ext (by match a with | ⟨0, _⟩ => rfl | ⟨1, _⟩ => rfl)
  have r15 : ∀ k : Fin 256, idx_main_v14 (ridx_main_v15 (ix2 p q) k) = ix2 q k := fun k =>
    funext fun a => Fin.ext (by match a with | ⟨0, _⟩ => rfl | ⟨1, _⟩ => rfl)
  have l26 : ∀ k : Fin 256, lidx_main_v26 (ix2 p q) k = ix2 p k := fun k =>
    funext fun a => Fin.ext (by match a with | ⟨0, _⟩ => rfl | ⟨1, _⟩ => rfl)
  have r26 : ∀ k : Fin 256, idx_main_v25 (ridx_main_v26 (ix2 p q) k) = ix2 q k := fun k =>
    funext fun a => Fin.ext (by match a with | ⟨0, _⟩ => rfl | ⟨1, _⟩ => rfl)
  have b17 : idx_main_v16 (idx_main_v17 (ix2 p q)) = ix1 q :=
    funext fun a => Fin.ext (by match a with | ⟨0, _⟩ => rfl)
  have b28 : idx_main_v27 (idx_main_v28 (ix2 p q)) = ix1 q :=
    funext fun a => Fin.ext (by match a with | ⟨0, _⟩ => rfl)
  simp only [val_main_v35_apply, val_main_v34_apply, val_main_v23_apply, val_main_v31_apply, val_main_v33_apply,
    val_main_v20_apply, val_main_v22_apply, val_main_v29_apply, val_main_v18_apply, val_main_v26_apply,
    val_main_v15_apply, val_main_v28_apply, val_main_v27_apply, val_main_v17_apply, val_main_v16_apply,
    val_main_v30_apply, val_main_cst_3_apply, val_main_v32_apply, val_main_cst_4_apply, val_main_v19_apply,
    val_main_cst_1_apply, val_main_v21_apply, val_main_cst_2_apply, val_main_v24_apply, val_main_v13_apply,
    val_main_v25_apply, val_main_v14_apply, l15, r15, l26, r26, b17, b28]
  rfl

end Cert.BiAgg

end
-- ==== Proof.lean ====
/-
  The bi-interaction aggregator's dense stage as a pallas call, against the same computation on the host.

  Both programs first aggregate neighbour features on the host with the same operations (a gather of the rows named
  by the edge columns, scaled by the edge values and summed into the rows named by the edge rows). The kernel then
  computes, ten row blocks at a time,

      leaky ((x * s) · W2ᵀ + b2)  +  leaky ((x + s) · W1ᵀ + b1)

  with the matrix unit's product into a zero accumulator; the reference computes the same expression on the host with
  dot products. On the extended reals a product into zero and a dot product are the same sum over the contracted
  position, a change of layout moves entries without changing them, and the ten row blocks tile the rows; no law that
  needs finite entries is used, so the precondition is never opened. The kernel's result array and the reference's
  result are therefore the one function `Cert.BiAgg.dense` of the arguments and of the shared aggregation
  (Proof/Spec.lean; the kernel's side in Proof/Payload.lean, Proof/HostArrays.lean and Proof/Blocks.lean, the
  reference's in Proof/RefDense.lean). The three frames are the generated runs; the kernel was printed with no
  rewrite, so its idealization claim is trivial.
-/
import proofs.«165882_j62715112456964_2_alg».proof.Defs
import proofs.«165882_j62715112456964_2_alg».proof.Proof.Gen.Kernel
import proofs.«165882_j62715112456964_2_alg».proof.Proof.Gen.Kernel.Skeleton
import proofs.«165882_j62715112456964_2_alg».proof.Proof.Gen.Kernel.Launch
import proofs.«165882_j62715112456964_2_alg».proof.Proof.Gen.Kernel.Points
import proofs.«165882_j62715112456964_2_alg».proof.Proof.Gen.Kernel.Frame
import proofs.«165882_j62715112456964_2_alg».proof.Proof.Gen.KernelIdeal
import proofs.«165882_j62715112456964_2_alg».proof.Proof.Gen.KernelIdeal.Skeleton
import proofs.«165882_j62715112456964_2_alg».proof.Proof.Gen.KernelIdeal.Launch
import proofs.«165882_j62715112456964_2_alg».proof.Proof.Gen.KernelIdeal.Points
import proofs.«165882_j62715112456964_2_alg».proof.Proof.Gen.KernelIdeal.Frame
import proofs.«165882_j62715112456964_2_alg».proof.Proof.Gen.ReferenceIdeal
import proofs.«165882_j62715112456964_2_alg».proof.Proof.Gen.Pre_finite_inputs
import proofs.«165882_j62715112456964_2_alg».proof.Proof.Gen.KernelIdeal.Value
import proofs.«165882_j62715112456964_2_alg».proof.Proof.Gen.ReferenceIdeal.Run
import proofs.«165882_j62715112456964_2_alg».proof.Proof.Gen.ReferenceIdeal.Read
import proofs.«165882_j62715112456964_2_alg».proof.Proof.Blocks
import proofs.«165882_j62715112456964_2_alg».proof.Proof.RefDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the dense stage of its arguments (the blocks tile the rows), the reference's
    result is the dense stage of its arguments (read operation by operation), and the arguments agree. -/
theorem algebraic : Cert.algebraic_KernelIdeal_ReferenceIdeal := by
  intro m ρ m' ρ' _ hagree
  refine ⟨_, Cert.BiAgg.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.BiAgg.reference_is_dense,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
